-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x1 : Shape := ⟨3, ![2, 8192, 1]⟩
abbrev S2x64 : Shape := ⟨2, ![2, 64]⟩
abbrev S1x64 : Shape := ⟨2, ![1, 64]⟩
abbrev S1 : Shape := ⟨1, ![1]⟩
abbrev S_ : Shape := ⟨0, ![]⟩

class Facts : Prop where
  bcast_S_S2x8192x1 : S_.BroadcastsInDim S2x8192x1 (![] : Fin 0 → Fin S2x8192x1.rank)
  reducesTo_S2x8192x1_S_d0_1_2 : S2x8192x1.ReducesTo [0, 1, 2] S_
  h_S_ : 0 < S_.numel
  bcast_S_S2x64 : S_.BroadcastsInDim S2x64 (![] : Fin 0 → Fin S2x64.rank)
  reducesTo_S2x64_S_d0_1 : S2x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S2x8192x1 .f32) (main_arg1 : FVec F S2x8192x1 .f32) (main_arg2 : FVec F S2x64 .f32) (main_arg3 : FVec F S1x64 .f32) (main_arg4 : FVec F S1 .f32) : IVec S_ 1 :=
  let main_v0 : FVec F S2x8192x1 .f32 := Host.absf main_arg0
  let main_cst : FVec F S_ .f32 := constant S_ .f32 0x7F800000#32
  let main_v1 : FVec F S2x8192x1 .f32 := broadcastInDim S2x8192x1 ![] bcast_S_S2x8192x1 main_cst
  let main_v2 : IVec S2x8192x1 1 := cmpf .olt main_v0 main_v1
  let main_c : IVec S_ 1 := constantI S_ 1 1#1
  let main_v3 : IVec S_ 1 := (fun x v => Host.reduce IntOp.andi x v reducesTo_S2x8192x1_S_d0_1_2 h_S_) main_v2 main_c
  let main_v4 : FVec F S2x8192x1 .f32 := Host.absf main_arg1
  let main_cst_0 : FVec F S_ .f32 := constant S_ .f32 0x7F800000#32
  let main_v5 : FVec F S2x8192x1 .f32 := broadcastInDim S2x8192x1 ![] bcast_S_S2x8192x1 main_cst_0
  let main_v6 : IVec S2x8192x1 1 := cmpf .olt main_v4 main_v5
  let main_c_1 : IVec S_ 1 := constantI S_ 1 1#1
  let main_v7 : IVec S_ 1 := (fun x v => Host.reduce IntOp.andi x v reducesTo_S2x8192x1_S_d0_1_2 h_S_) main_v6 main_c_1
  let main_v8 : IVec S_ 1 := andi main_v3 main_v7
  let main_v9 : FVec F S2x64 .f32 := Host.absf main_arg2
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_v13 main_v16
-- ==== Kernel.lean ====
abbrev S2x8192x1 : Shape := ⟨3, ![2, 8192, 1]⟩
abbrev S2x64 : Shape := ⟨2, ![2, 64]⟩
abbrev S1x64 : Shape := ⟨2, ![1, 64]⟩
abbrev S1 : Shape := ⟨1, ![1]⟩
abbrev S64x1 : Shape := ⟨2, ![64, 1]⟩
abbrev S2x1 : Shape := ⟨2, ![2, 1]⟩
abbrev S1x1 : Shape := ⟨2, ![1, 1]⟩
abbrev S2x8192 : Shape := ⟨2, ![2, 8192]⟩
abbrev S2x1x8192 : Shape := ⟨3, ![2, 1, 8192]⟩
abbrev S2x8192x8192 : Shape := ⟨3, ![2, 8192, 8192]⟩
abbrev S1x1x1024 : Shape := ⟨3, ![1, 1, 1024]⟩
abbrev S1x1024x1024 : Shape := ⟨3, ![1, 1024, 1024]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 18
  | .vmem => 6
  | .smem => 0
  | _ => 0

abbrev bufTy : (tb : Table) → Fin (tcTables nBuf tb) → BufTy
  | .hbm, ⟨0, _⟩ => ⟨S2x8192x1, .f32⟩
  | .hbm, ⟨1, _⟩ => ⟨S2x8192x1, .f32⟩
  | .hbm, ⟨2, _⟩ => ⟨S2x64, .f32⟩
  | .hbm, ⟨3, _⟩ => ⟨S1x64, .f32⟩
  | .hbm, ⟨4, _⟩ => ⟨S1, .f32⟩
  | .hbm, ⟨5, _⟩ => ⟨S64x1, .f32⟩
  | .hbm, ⟨6, _⟩ => ⟨S2x1, .f32⟩
  | .hbm, ⟨7, _⟩ => ⟨S1x1, .f32⟩
  | .hbm, ⟨8, _⟩ => ⟨S2x1, .f32⟩
  | .hbm, ⟨9, _⟩ => ⟨S2x1, .f32⟩
  | .hbm, ⟨10, _⟩ => ⟨S2x1, .f32⟩
  | .hbm, ⟨11, _⟩ => ⟨S2x8192, .f32⟩
  | .hbm, ⟨12, _⟩ => ⟨S2x8192, .f32⟩
  | .hbm, ⟨13, _⟩ => ⟨S2x8192, .f32⟩
  | .hbm, ⟨14, _⟩ => ⟨S2x8192, .f32⟩
  | .hbm, ⟨15, _⟩ => ⟨S2x1x8192, .f32⟩
  | .hbm, ⟨16, _⟩ => ⟨S2x1x8192, .f32⟩
  | .hbm, ⟨17, _⟩ => ⟨S2x8192x8192, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x1024, .f32⟩
  | .local _ .vmem, ⟨5, _⟩ => ⟨S1x1024x1024, .f32⟩
  | _, _ => ⟨S2x8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  transposes_S1x64_S64x1_1_0 : S1x64.Transposes [1, 0] S64x1
  bcast_S1_S1x1_1 : S1.BroadcastsInDim S1x1 (![1] : Fin 1 → Fin S1x1.rank)
  bcast_S1x1_S2x1_0_1 : S1x1.BroadcastsInDim S2x1 (![0, 1] : Fin 2 → Fin S2x1.rank)
  shapeCasts_S2x8192x1_S2x8192 : S2x8192x1.ShapeCasts S2x8192
  bcast_S2x1_S2x8192_0_1 : S2x1.BroadcastsInDim S2x8192 (![0, 1] : Fin 2 → Fin S2x8192.rank)
  shapeCasts_S2x8192_S2x1x8192 : S2x8192.ShapeCasts S2x1x8192
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S2x64_S64x1_S2x1_1_0_0_1_n_n_wf : DotDims.WF S2x64 S64x1 S2x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S2x1x8192.size a
  hwx0_0 : ∀ i : grid0.Coords, EltTy.bits .f32 = 32 ∨ (Rect.block (s := S2x1x8192) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S2x1x8192.size a
  hwx0_1 : ∀ i : grid0.Coords, EltTy.bits .f32 = 32 ∨ (Rect.block (s := S2x1x8192) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S2x8192x8192.size a
  hwx0_2 : ∀ i : grid0.Coords, EltTy.bits .f32 = 32 ∨ (Rect.block (s := S2x8192x8192) S1x1024x1024.size (cc0_transform_2 i) (hinb0_2 i)).WholeWords (EltTy.packing .f32)

variable [Facts₀]

def dot_S2x64_S64x1_S2x1_1_0_0_1_n_n : DotDims S2x64 S64x1 S2x1 where
  lhsContracting := [1]
  rhsContracting := [0]
  lhsNonContracting := [0]
  rhsNonContracting := [1]
  lhsBatch := []
  rhsBatch := []
  wf := dot_S2x64_S64x1_S2x1_1_0_0_1_n_n_wf

abbrev win0_0 : Pipeline.Window sig grid0 :=
  Pipeline.Window.ofSpec (Memref.whole main_v10) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x8192x1 : Shape := ⟨3, ![2, 8192, 1]⟩
abbrev S2x64 : Shape := ⟨2, ![2, 64]⟩
abbrev S1x64 : Shape := ⟨2, ![1, 64]⟩
abbrev S1 : Shape := ⟨1, ![1]⟩
abbrev S64x1 : Shape := ⟨2, ![64, 1]⟩
abbrev S2x1 : Shape := ⟨2, ![2, 1]⟩
abbrev S1x1 : Shape := ⟨2, ![1, 1]⟩
abbrev S2x8192 : Shape := ⟨2, ![2, 8192]⟩
abbrev S2x1x8192 : Shape := ⟨3, ![2, 1, 8192]⟩
abbrev S2x8192x8192 : Shape := ⟨3, ![2, 8192, 8192]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x1, .f32⟩
  | .hbm, ⟨1, _⟩ => ⟨S2x8192x1, .f32⟩
  | .hbm, ⟨2, _⟩ => ⟨S2x64, .f32⟩
  | .hbm, ⟨3, _⟩ => ⟨S1x64, .f32⟩
  | .hbm, ⟨4, _⟩ => ⟨S1, .f32⟩
  | .hbm, ⟨5, _⟩ => ⟨S64x1, .f32⟩
  | .hbm, ⟨6, _⟩ => ⟨S2x1, .f32⟩
  | .hbm, ⟨7, _⟩ => ⟨S1x1, .f32⟩
  | .hbm, ⟨8, _⟩ => ⟨S2x1, .f32⟩
  | .hbm, ⟨9, _⟩ => ⟨S2x1, .f32⟩
  | .hbm, ⟨10, _⟩ => ⟨S2x1, .f32⟩
  | .hbm, ⟨11, _⟩ => ⟨S2x8192, .f32⟩
  | .hbm, ⟨12, _⟩ => ⟨S2x8192, .f32⟩
  | .hbm, ⟨13, _⟩ => ⟨S2x8192, .f32⟩
  | .hbm, ⟨14, _⟩ => ⟨S2x8192, .f32⟩
  | .hbm, ⟨15, _⟩ => ⟨S2x8192x1, .f32⟩
  | .hbm, ⟨16, _⟩ => ⟨S2x1x8192, .f32⟩
  | .hbm, ⟨17, _⟩ => ⟨S2x8192x8192, .f32⟩
  | .hbm, ⟨18, _⟩ => ⟨S2x8192x8192, .f32⟩
  | .hbm, ⟨19, _⟩ => ⟨S2x8192x8192, .f32⟩
  | .hbm, ⟨20, _⟩ => ⟨S2x8192x8192, .f32⟩
  | .hbm, ⟨21, _⟩ => ⟨S2x8192x8192, .i1⟩
  | .hbm, ⟨22, _⟩ => ⟨S_, .f32⟩
  | .hbm, ⟨23, _⟩ => ⟨S_, .f32⟩
  | .hbm, ⟨24, _⟩ => ⟨S2x8192x8192, .f32⟩
  | .hbm, ⟨25, _⟩ => ⟨S2x8192x8192, .f32⟩
  | .hbm, ⟨26, _⟩ => ⟨S2x8192x8192, .f32⟩
  | .hbm, ⟨27, _⟩ => ⟨S_, .f32⟩
  | .hbm, ⟨28, _⟩ => ⟨S2x8192x8192, .f32⟩
  | .hbm, ⟨29, _⟩ => ⟨S2x8192x8192, .f32⟩
  | .hbm, ⟨30, _⟩ => ⟨S2x8192x8192, .f32⟩
  | .hbm, ⟨31, _⟩ => ⟨S_, .f32⟩
  | .hbm, ⟨32, _⟩ => ⟨S2x8192x8192, .f32⟩
  | .hbm, ⟨33, _⟩ => ⟨S2x8192x8192, .f32⟩
  | _, _ => ⟨S2x8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  transposes_S1x64_S64x1_1_0 : S1x64.Transposes [1, 0] S64x1
  bcast_S1_S1x1_1 : S1.BroadcastsInDim S1x1 (![1] : Fin 1 → Fin S1x1.rank)
  bcast_S1x1_S2x1_0_1 : S1x1.BroadcastsInDim S2x1 (![0, 1] : Fin 2 → Fin S2x1.rank)
  shapeCasts_S2x8192x1_S2x8192 : S2x8192x1.ShapeCasts S2x8192
  bcast_S2x1_S2x8192_0_1 : S2x1.BroadcastsInDim S2x8192 (![0, 1] : Fin 2 → Fin S2x8192.rank)
  bcast_S2x8192_S2x8192x1_0_1 : S2x8192.BroadcastsInDim S2x8192x1 (![0, 1] : Fin 2 → Fin S2x8192x1.rank)
  bcast_S2x8192_S2x1x8192_0_2 : S2x8192.BroadcastsInDim S2x1x8192 (![0, 2] : Fin 2 → Fin S2x1x8192.rank)
  bcast_S2x8192x1_S2x8192x8192_0_1_2 : S2x8192x1.BroadcastsInDim S2x8192x8192 (![0, 1, 2] : Fin 3 → Fin S2x8192x8192.rank)
  bcast_S2x1x8192_S2x8192x8192_0_1_2 : S2x1x8192.BroadcastsInDim S2x8192x8192 (![0, 1, 2] : Fin 3 → Fin S2x8192x8192.rank)
  bcast_S_S2x8192x8192 : S_.BroadcastsInDim S2x8192x8192 (![] : Fin 0 → Fin S2x8192x8192.rank)
  dot_S2x64_S64x1_S2x1_1_0_0_1_n_n_wf : DotDims.WF S2x64 S64x1 S2x1 [1] [0] [0] [1] [] []

variable [Facts₀]

def dot_S2x64_S64x1_S2x1_1_0_0_1_n_n : DotDims S2x64 S64x1 S2x1 where
  lhsContracting := [1]
  rhsContracting := [0]
  lhsNonContracting := [0]
  rhsNonContracting := [1]
  lhsBatch := []
  rhsBatch := []
  wf := dot_S2x64_S64x1_S2x1_1_0_0_1_n_n_wf

class Facts : Prop extends Facts₀ where

variable [Facts]
-- ==== Proof.KernelSeqs.lean ====
/-
  The two sequences the kernel's region is launched on.

  Before the region the program computes, on the host, the scaled sequence
      X(b, i) = x0(b, i, 0) · tanh(Σ_k x2(b, k) · x3(0, k) + x4(0))
  (the first input with its unit axis dropped, times one gate per batch) and the plain sequence
  Y(b, j) = x1(b, j, 0), and hands each to the region as a [2, 1, 8192] stack of rows. Here the two sequences are
  named as the terms that compute them — they are never opened: both programs compute them by the same
  operations — and the stacks the region finds are read at an index: row (b, 0, q) of a stack is the sequence
  at (b, q), because a reshape keeps the row-major position and (b·1 + 0)·8192 + q = b·8192 + q.
-/
import proofs.«132411_j16484084483566_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The scaled sequence X: the first input, unit axis dropped, times the per-batch gate tanh(x2 · x3ᵀ + x4). -/
def scaledSeq (x0 : FVec F S2x8192x1 .f32) (x2 : FVec F S2x64 .f32) (x3 : FVec F S1x64 .f32) (x4 : FVec F S1 .f32) :
    FVec F S2x8192 .f32 :=
  mulf (shapeCast S2x8192 x0 shapeCasts_S2x8192x1_S2x8192)
    (broadcastInDim S2x8192 ![0, 1] bcast_S2x1_S2x8192_0_1
      (Host.tanh
        (addf
          (Host.dotGeneral dot_S2x64_S64x1_S2x1_1_0_0_1_n_n none x2
            (transpose S64x1 [1, 0] x3 transposes_S1x64_S64x1_1_0))
          (broadcastInDim S2x1 ![0, 1] bcast_S1x1_S2x1_0_1 (broadcastInDim S1x1 ![1] bcast_S1_S1x1_1 x4)))))

/-- The plain sequence Y: the second input with its unit axis dropped. -/
def plainSeq (x1 : FVec F S2x8192x1 .f32) : FVec F S2x8192 .f32 :=
  shapeCast S2x8192 x1 shapeCasts_S2x8192x1_S2x8192

variable (m : (ℓ : Loc nD τ sig) → Buf (Elt Ideal) ℓ)

/-- X of the launch contents of the arguments on core `c`. -/
abbrev Xof (c : Dev nD) : FVec Ideal S2x8192 .f32 :=
  scaledSeq (F := Ideal) (m ((c : Thread nD τ).loc main_arg0)) (m ((c : Thread nD τ).loc main_arg2))
    (m ((c : Thread nD τ).loc main_arg3)) (m ((c : Thread nD τ).loc main_arg4))

/-- Y of the launch contents of the arguments on core `c`. -/
abbrev Yof (c : Dev nD) : FVec Ideal S2x8192 .f32 :=
  plainSeq (F := Ideal) (m ((c : Thread nD τ).loc main_arg1))

/-- The first staged array, as the region finds it, is X laid out as a [2, 1, 8192] stack. -/
theorem staged_X (c : Dev nD) :
    (V m c main_v10 : S2x1x8192.Idx → EReal) = shapeCast S2x1x8192 (Xof m c) shapeCasts_S2x8192_S2x1x8192 := by
  dsimp only [Gen.V, Gen.hostOps0]
  after_results
  rfl

/-- The second staged array, as the region finds it, is Y laid out as a [2, 1, 8192] stack. -/
theorem staged_Y (c : Dev nD) :
    (V m c main_v11 : S2x1x8192.Idx → EReal) = shapeCast S2x1x8192 (Yof m c) shapeCasts_S2x8192_S2x1x8192 := by
  dsimp only [Gen.V, Gen.hostOps0]
  after_results
  rfl

/-- A [2, 8192] sequence laid out as a [2, 1, 8192] stack, read at an index whose batch is `b` and whose last
    coordinate is `q`, is the sequence at (b, q). -/
theorem stack_apply (Z : S2x8192.Idx → EReal) (k : S2x1x8192.Idx) (b : Fin 2) (q : Fin 8192)
    (hb : (k 0).val = b.val) (hq : (k 2).val = q.val) :
    shapeCast S2x1x8192 Z shapeCasts_S2x8192_S2x1x8192 k = Z (ix2 b q) := by
  have h1 : (k 1).val < 1 := (k 1).isLt
  refine shapeCast_apply Z shapeCasts_S2x8192_S2x1x8192 k (ix2 b q) ?_
  rw [Shape.rowMajor_val_two, Shape.rowMajor_val_three]
  show b.val * 8192 + q.val = ((k 0).val * 1 + (k 1).val) * 8192 + (k 2).val
  omega

end Cert.KernelIdeal.KValue

end
-- ==== Proof.Affinity.lean ====
/-
  The Gaussian affinity table, stated once for both programs.

  For two real sequences per batch, X and Y of shape [2, 8192], the table has the entry
      T(b, i, j) = exp(-(X(b,i) - Y(b,j))² / 1) · 1
  at every (b, i, j) of [2, 8192, 8192], read on the extended reals: the square is the product of the
  difference with itself, the quotient by the literal 1.0 and the product with the literal 1.0 are kept as
  written (the same literal words stand on both sides, so they are never evaluated).

  Both programs guard the squared distance d by "if d ≠ d then +∞ else d". On the extended reals nothing is
  unordered, so d ≠ d is false for every d and the guard returns d. One program negates d as 0 - d, the other
  as -d; on the extended reals 0 - d = -d for every d, the infinities included. These two facts are all that
  separates the two spellings of an entry from `entry`: no finiteness of X or Y is used.
-/
import Idealize.ShloMosaic.PureOps.Ideal
import Idealize.ShloMosaic.PureOps.Ideal.Laws
import Idealize.ShloMosaic.Lib.ValueIdx

noncomputable section

namespace Cert.Affinity

open Idealize.ShloMosaic Idealize.ShloMosaic.ValueIdx

/-- One entry of the table: exp(-(x - y)·(x - y) / 1) · 1 on the extended reals. -/
def entry (x y : EReal) : EReal :=
  Ideal.exp (Ideal.div (-((x - y) * (x - y))) (Ideal.ofBits .f32 0x3F800000#32)) * Ideal.ofBits .f32 0x3F800000#32

/-- The whole table: entry (b, i, j) pairs X(b, i) with Y(b, j). -/
def table (X Y : (⟨2, ![2, 8192]⟩ : Shape).Idx → EReal) : (⟨3, ![2, 8192, 8192]⟩ : Shape).Idx → EReal :=
  fun i => entry (X (ix2 (i 0) (i 1))) (Y (ix2 (i 0) (i 2)))

/-- Nothing differs from itself: the ordered "not equal" of a value with itself is the bit 0. -/
theorem cmp_one_self (d : EReal) : Ideal.cmp .one d d = 0#1 := by
  simp [Ideal.cmp]

/-- The unordered "not equal" answers as the ordered one: also the bit 0 on a value and itself. -/
theorem cmp_une_self (d : EReal) : Ideal.cmp .une d d = 0#1 := by
  simp [Ideal.cmp]

/-- The spelling with the ordered comparison and the negation written 0 - d is `entry`. -/
theorem entry_of_sub_form (x y : Ideal .f32) :
    FloatOps.mulf (FloatOps.exp (FloatOps.divf (FloatOps.subf (Scalar.ofBits .f32 0x00000000#32)
      (Scalar.select (FloatOps.cmpf .one (FloatOps.mulf (FloatOps.subf x y) (FloatOps.subf x y))
          (FloatOps.mulf (FloatOps.subf x y) (FloatOps.subf x y)))
        (Scalar.ofBits .f32 0x7F800000#32) (FloatOps.mulf (FloatOps.subf x y) (FloatOps.subf x y))))
      (Scalar.ofBits .f32 0x3F800000#32))) (Scalar.ofBits .f32 0x3F800000#32) = entry x y := by
  have hc : FloatOps.cmpf .one (FloatOps.mulf (FloatOps.subf x y) (FloatOps.subf x y))
      (FloatOps.mulf (FloatOps.subf x y) (FloatOps.subf x y)) = 0#1 := cmp_one_self _
  rw [hc, select_zero]
  simp only [Ideal.mulf_def, Ideal.subf_def, Ideal.divf_def, Ideal.exp_def, Ideal.ofBits_def,
    Ideal.ofBits_zero_f32, zero_sub]
  rfl

/-- The spelling with the unordered comparison, the host's negation, quotient and exponential is `entry`. -/
theorem entry_of_neg_form (x y : Ideal .f32) :
    FloatOps.mulf (FloatOps.hostUnary .exp (FloatOps.hostDivf (FloatOps.hostNegf
      (Scalar.select (FloatOps.cmpf .une (FloatOps.mulf (FloatOps.subf x y) (FloatOps.subf x y))
          (FloatOps.mulf (FloatOps.subf x y) (FloatOps.subf x y)))
        (FloatOps.ofBits .f32 0x7F800000#32) (FloatOps.mulf (FloatOps.subf x y) (FloatOps.subf x y))))
      (FloatOps.ofBits .f32 0x3F800000#32))) (FloatOps.ofBits .f32 0x3F800000#32) = entry x y := by
  have hc : FloatOps.cmpf .une (FloatOps.mulf (FloatOps.subf x y) (FloatOps.subf x y))
      (FloatOps.mulf (FloatOps.subf x y) (FloatOps.subf x y)) = 0#1 := cmp_une_self _
  rw [hc, select_zero]
  simp only [Ideal.mulf_def, Ideal.subf_def, Ideal.hostDivf_def, Ideal.hostUnary_exp_def, Ideal.hostNegf_def,
    Ideal.negf_def, Ideal.ofBits_def]
  rfl

end Cert.Affinity

end
-- ==== Proof.KernelBlocks.lean ====
/-
  From the kernel's blocks to the whole table.

  The grid has 2 · 8 · 8 points (b, p, r). At point (b, p, r) the region loads rows (b, 0, 1024p …) of the
  stack of X and rows (b, 0, 1024r …) of the stack of Y, and writes back the 1024 × 1024 block of the result
  with corner (b, 1024p, 1024r). Entry (0, u, v) of that block is the affinity entry of the u-th loaded X and
  the v-th loaded Y, that is of X(b, 1024p + u) and Y(b, 1024r + v): exactly entry (b, 1024p + u, 1024r + v)
  of the table. So every point writes back its block of ONE whole-array function, the table of X and Y; the
  blocks' corners run over all of {0,1} × {0,…,7} × {0,…,7}, so the blocks cover the array (index (b, i, j)
  lies in the block of the point with p = i / 1024, r = j / 1024), and the array ends holding the table.
-/
import proofs.«132411_j16484084483566_1_alg».proof.Proof.Gen.KernelIdeal.Value
import proofs.«132411_j16484084483566_1_alg».proof.Proof.KernelSeqs
import proofs.«132411_j16484084483566_1_alg».proof.Proof.Affinity

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin3 : (![0, 0, 0] : Fin 3 → Nat) = fun _ => 0 := funext fun a => by fin_cases a <;> rfl

/-- The block one point leaves, at an index, is the affinity entry of the X loaded at the index's middle
    coordinate and the Y loaded at its last coordinate. -/
theorem block_entry (P0 P1 : Vec Ideal S1x1x1024 .f32) (y : S1x1024x1024.Idx) :
    Value.E2 P0 P1 y = Cert.Affinity.entry (P0 (Value.ix2_0 y)) (P1 (Value.ix2_1 y)) :=
  Cert.Affinity.entry_of_sub_form (P0 (Value.ix2_0 y)) (P1 (Value.ix2_1 y))

/-- The printed index maps, decided over the 128 grid points: the X window moves with the output block's batch and
    row-block, the Y window with its batch and column-block, both sit on the stacks' single middle row; and the
    output's block indices stay in {0,1} × {0,…,7} × {0,…,7}. -/
theorem index_facts : ∀ t : Fin cfg0.N,
    win0_0.index t (0 : Fin 3) = win0_2.index t (0 : Fin 3)
    ∧ win0_0.index t (1 : Fin 3) = 0
    ∧ win0_0.index t (2 : Fin 3) = win0_2.index t (1 : Fin 3)
    ∧ win0_1.index t (0 : Fin 3) = win0_2.index t (0 : Fin 3)
    ∧ win0_1.index t (1 : Fin 3) = 0
    ∧ win0_1.index t (2 : Fin 3) = win0_2.index t (2 : Fin 3)
    ∧ win0_2.index t (0 : Fin 3) ≤ 1 ∧ win0_2.index t (1 : Fin 3) ≤ 7 ∧ win0_2.index t (2 : Fin 3) ≤ 7 :=
  (by decide +kernel : ∀ t : Fin grid0.N, _)

/-- Every block corner of {0,1} × {0,…,7} × {0,…,7} is some point's. -/
theorem index_onto : ∀ (q0 : Fin 2) (q1 : Fin 8) (q2 : Fin 8), ∃ t : Fin cfg0.N, win0_2.index t = ![q0.val, q1.val, q2.val] :=
  (by decide +kernel : ∀ (q0 : Fin 2) (q1 : Fin 8) (q2 : Fin 8), ∃ t : Fin grid0.N, win0_2.index t = ![q0.val, q1.val, q2.val])

/-- What point `t` writes back is block `t` of the affinity table of X and Y. -/
theorem flushed_is_table (c : Dev nD) (t : Fin cfg0.N) :
    (dats m 0 c).flushed 2 t
      = ((cfg0.win 2).blk t).view.read (Elt Ideal) (Cert.Affinity.table (Xof m c) (Yof m c)) := by
  rw [Value.flushed2]
  funext j
  show out0_2 (iblk m c 0 t) (iblk m c 1 t) j = Cert.Affinity.table (Xof m c) (Yof m c) (((cfg0.win 2).blk t).view.emb j)
  unfold out0_2
  rw [Value.canon2_eq]
  simp only [View.ld_unit_zero (S := S1x1x1024) origin3]
  refine (block_entry _ _ j).trans ?_
  obtain ⟨e0, e1, e2, e3, e4, e5, -, -, -⟩ := index_facts t
  have hj0 : (j 0).val < 1 := (j 0).isLt
  have hj1 : (j 1).val < 1024 := (j 1).isLt
  have hj2 : (j 2).val < 1024 := (j 2).isLt
  -- the X loaded for row u of the block is X(b, 1024p + u)
  have hX : iblk m c 0 t (Value.ix2_0 j)
      = Xof m c (ix2 ((((cfg0.win 2).blk t).view.emb j) 0) ((((cfg0.win 2).blk t).view.emb j) 1)) := by
    show V m c main_v10 (((cfg0.win 0).blk t).view.emb (Value.ix2_0 j)) = _
    refine (congrFun (staged_X m c) _).trans ?_
    refine stack_apply _ _ _ _ ?_ ?_
    · show win0_0.index t (0 : Fin 3) * 1 + 1 * 0 = win0_2.index t (0 : Fin 3) * 1 + 1 * (j 0).val
      omega
    · show win0_0.index t (2 : Fin 3) * 1024 + 1 * (j 1).val = win0_2.index t (1 : Fin 3) * 1024 + 1 * (j 1).val
      omega
  -- the Y loaded for column v of the block is Y(b, 1024r + v)
  have hY : iblk m c 1 t (Value.ix2_1 j)
      = Yof m c (ix2 ((((cfg0.win 2).blk t).view.emb j) 0) ((((cfg0.win 2).blk t).view.emb j) 2)) := by
    show V m c main_v11 (((cfg0.win 1).blk t).view.emb (Value.ix2_1 j)) = _
    refine (congrFun (staged_Y m c) _).trans ?_
    refine stack_apply _ _ _ _ ?_ ?_
    · show win0_1.index t (0 : Fin 3) * 1 + 1 * 0 = win0_2.index t (0 : Fin 3) * 1 + 1 * (j 0).val
      omega
    · show win0_1.index t (2 : Fin 3) * 1024 + 1 * (j 2).val = win0_2.index t (2 : Fin 3) * 1024 + 1 * (j 2).val
      omega
  exact congrArg₂ Cert.Affinity.entry hX hY

/-- An index of the result array is in point `t`'s block iff each coordinate is in the block's range on its axis. -/
theorem mem_block (t : Fin cfg0.N) (i : S2x8192x8192.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v12).slice (win0_2.rect t)).set ↔ _
  rw [View.set_slice_whole, Rect.mem_set_unit]
  exact Iff.rfl

/-- The blocks cover the array: index (b, i, j) lies in the block with corner (b, i / 1024, j / 1024). -/
theorem covered (i : S2x8192x8192.Idx) :
    ∃ t : Fin cfg0.N, (cfg0.win 2).flush t = true ∧ i ∈ ((cfg0.win 2).blk t).view.set := by
  have hi0 : (i 0).val < 2 := (i 0).isLt
  have hi1 : (i 1).val < 8192 := (i 1).isLt
  have hi2 : (i 2).val < 8192 := (i 2).isLt
  obtain ⟨t, ht⟩ := index_onto ⟨(i 0).val, hi0⟩ ⟨(i 1).val / 1024, by omega⟩ ⟨(i 2).val / 1024, by omega⟩
  have q0 : win0_2.index t (0 : Fin 3) = (i 0).val := congrFun ht 0
  have q1 : win0_2.index t (1 : Fin 3) = (i 1).val / 1024 := congrFun ht 1
  have q2 : win0_2.index t (2 : Fin 3) = (i 2).val / 1024 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- The result array after the run is the affinity table of X and Y. -/
theorem final_is_table (c : Dev nD) :
    (dats m 0 c).arrAt 2 cfg0.N = Cert.Affinity.table (Xof m c) (Yof m c) :=
  (dats m 0 c).arrAt_eq_of_cover 2 (Cert.Affinity.table (Xof m c) (Yof m c))
    (fun t _ => flushed_is_table m c t) covered

/-- Every weakly fair execution of the kernel's program terminates with the result array at the affinity table of
    X and Y of the launch contents, the arguments unchanged. -/
theorem run : θ_run defs (onTc (τ := τ) (main (F := Ideal))) ⟨m, fun _ => 0, ρ⟩ fun r => ∀ c : Dev nD,
      r.2.mem ((c : Thread nD τ).loc main_v12) = Cert.Affinity.table (Xof m c) (Yof m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_is_table m c), (h c).2⟩) (Value.run_blocks m ρ)

end Cert.KernelIdeal.KValue

end
-- ==== Proof.RefTable.lean ====
/-
  The reference computes the affinity table.

  Its result at (b, i, j) is read one operation at a time: the final product with 1.0, the exponential, the
  quotient by 1.0, the negation, the guarded squared distance, and under it the two broadcasts — the scaled
  sequence X spread along the last axis (so the entry reads X at (b, i)) and the sequence Y spread along the
  middle axis (so it reads Y at (b, j)). What is left is the host's spelling of one entry at X(b, i), Y(b, j).
  X and Y themselves (the tanh-gated scaling of the first input, the second input with its unit axis dropped)
  are kept as the stages that compute them and never opened.
-/
import proofs.«132411_j16484084483566_1_alg».proof.Proof.Gen.ReferenceIdeal.Read
import proofs.«132411_j16484084483566_1_alg».proof.Proof.Affinity

noncomputable section

namespace Cert.ReferenceIdeal.RefValue

open Cert.ReferenceIdeal Cert.ReferenceIdeal.Read Idealize.ShloMosaic Idealize.ShloMosaic.ValueIdx

/-- Following an index of the table back through the two broadcasts of X: (b, i, j) ↦ (b, i, 0) ↦ (b, i). -/
theorem back_to_X (i : S2x8192x8192.Idx) : idx_main_v10 (idx_main_v12 i) = ix2 (i 0) (i 1) :=
  funext fun a => Fin.ext (by match a with | ⟨0, _⟩ => rfl | ⟨1, _⟩ => rfl)

/-- Following an index of the table back through the two broadcasts of Y: (b, i, j) ↦ (b, 0, j) ↦ (b, j). -/
theorem back_to_Y (i : S2x8192x8192.Idx) : idx_main_v11 (idx_main_v13 i) = ix2 (i 0) (i 2) :=
  funext fun a => Fin.ext (by match a with | ⟨0, _⟩ => rfl | ⟨1, _⟩ => rfl)

/-- The reference's result is the affinity table of its scaled first sequence and its second sequence. -/
theorem result_is_table (x0 x1 : (⟨S2x8192x1, .f32⟩ : BufTy).Contents (Elt Ideal))
    (x2 : (⟨S2x64, .f32⟩ : BufTy).Contents (Elt Ideal)) (x3 : (⟨S1x64, .f32⟩ : BufTy).Contents (Elt Ideal))
    (x4 : (⟨S1, .f32⟩ : BufTy).Contents (Elt Ideal)) :
    val_main_v23 (F := Ideal) x0 x1 x2 x3 x4
      = Cert.Affinity.table (val_main_v8 (F := Ideal) x0 x2 x3 x4) (val_main_v9 (F := Ideal) x1) := by
  funext i
  rw [val_main_v23_apply, val_main_v21_apply, val_main_v20_apply, val_main_v18_apply, val_main_v17_apply,
    val_main_v16_apply, val_main_v15_apply, val_main_v14_apply, val_main_v12_apply, val_main_v10_apply,
    val_main_v13_apply, val_main_v11_apply, val_main_v22_apply, val_main_cst_1_apply, val_main_v19_apply,
    val_main_cst_0_apply, val_main_call0_v1_apply, val_main_call0_v0_apply, val_main_cst_apply,
    back_to_X, back_to_Y]
  exact Cert.Affinity.entry_of_neg_form _ _

end Cert.ReferenceIdeal.RefValue

end
-- ==== Proof.Claims.lean ====
/-
  The five claims.

  Both programs compute the same two sequences on the host by the same operations on the same inputs —
  X(b, i) = x0(b, i, 0) · tanh(Σ_k x2(b, k) · x3(0, k) + x4(0)) and Y(b, j) = x1(b, j, 0) — so the kernel's terms for
  them and the reference's are one term. The kernel's result array ends at the affinity table of X and Y (its
  blocks are blocks of the table and cover the array); the reference's result is the same table (its broadcasts
  pair X(b, i) with Y(b, j) at entry (b, i, j)). The two spellings of an entry agree on all extended reals, so
  the precondition (finite inputs) is not used. The idealized kernel is the kernel's own text read on the
  extended reals: nothing was rewritten, and that claim is trivial. Each program's frame is its run with the
  result dropped.
-/
import proofs.«132411_j16484084483566_1_alg».proof.Defs
import proofs.«132411_j16484084483566_1_alg».proof.Proof.Gen.Kernel.Frame
import proofs.«132411_j16484084483566_1_alg».proof.Proof.Gen.KernelIdeal.Frame
import proofs.«132411_j16484084483566_1_alg».proof.Proof.Gen.ReferenceIdeal.Run
import proofs.«132411_j16484084483566_1_alg».proof.Proof.Gen.Pre_finite_inputs
import proofs.«132411_j16484084483566_1_alg».proof.Proof.KernelBlocks
import proofs.«132411_j16484084483566_1_alg».proof.Proof.RefTable

noncomputable section

open Idealize.ShloMosaic Idealize.ShloMosaic.TcCoe Idealize.SL.Sem

namespace Cert.Proof.AffinityClaims

/-- The scaled sequence is one term in both programs. -/
theorem same_X (x0 : FVec Ideal Cert.KernelIdeal.S2x8192x1 .f32) (x2 : FVec Ideal Cert.KernelIdeal.S2x64 .f32)
    (x3 : FVec Ideal Cert.KernelIdeal.S1x64 .f32) (x4 : FVec Ideal Cert.KernelIdeal.S1 .f32) :
    Cert.ReferenceIdeal.Read.val_main_v8 (F := Ideal) x0 x2 x3 x4
      = Cert.KernelIdeal.KValue.scaledSeq (F := Ideal) x0 x2 x3 x4 := rfl

/-- The plain sequence is one term in both programs. -/
theorem same_Y (x1 : FVec Ideal Cert.KernelIdeal.S2x8192x1 .f32) :
    Cert.ReferenceIdeal.Read.val_main_v9 (F := Ideal) x1 = Cert.KernelIdeal.KValue.plainSeq (F := Ideal) x1 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the statement is `True`. -/
theorem preserves : Cert.preserves_Kernel_KernelIdeal := trivial

/-- Run from memories that agree on the five inputs, the kernel's program ends with its result array at the affinity
    table of X and Y, and the reference with its result at the same table. -/
theorem algebraic : Cert.algebraic_KernelIdeal_ReferenceIdeal := by
  intro m ρ m' ρ' _ hagree
  refine ⟨fun c => Cert.Affinity.table (Cert.KernelIdeal.KValue.Xof m c) (Cert.KernelIdeal.KValue.Yof m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_is_table,
    (hagree c).1, (hagree c).2.1, (hagree c).2.2.1, (hagree c).2.2.2.1, (hagree c).2.2.2.2, same_X, same_Y]

end Cert.Proof.AffinityClaims

end
-- ==== Proof.lean ====
/-
  The proof of `Cert.Claim` for the pairwise Gaussian affinity kernel.

  The program takes two batches of 8192 scalars (with a trailing unit axis), scales the first by a per-batch gate
  tanh(W · A_wᵀ + A_b) to get X, keeps the second as Y, and produces the [2, 8192, 8192] table
      T(b, i, j) = exp(-(X(b,i) - Y(b,j))² / 1) · 1,
  the squared distance first passed through "if d ≠ d then +∞ else d". The kernel computes the table in 128 blocks
  of 1024 × 1024, one per grid point, from 1024 entries of X and 1024 of Y; the reference computes it whole by
  broadcasting X along the last axis and Y along the middle one.

  On the extended reals: d ≠ d never holds, so the guard returns d (the kernel's ordered and the reference's
  unordered comparison are the same comparison there); the kernel's 0 - d is the reference's -d; quotient,
  exponential and product are the same operations in both. Hence each side's entry is the one function
  `Cert.Affinity.entry` of X(b, i) and Y(b, j) (Proof/Affinity.lean), with no use of the inputs' finiteness.
  The reference's result is the table (Proof/RefTable.lean); each grid point writes back its block of the table
  and the blocks cover the array, so the kernel's result is the table (Proof/KernelSeqs.lean,
  Proof/KernelBlocks.lean); X and Y are the same terms in both programs (Proof/Claims.lean). The idealized kernel
  is the kernel's text itself, and each frame is a run with the result dropped.
-/
import proofs.«132411_j16484084483566_1_alg».proof.Defs
import proofs.«132411_j16484084483566_1_alg».proof.Proof.Gen.Kernel
import proofs.«132411_j16484084483566_1_alg».proof.Proof.Gen.Kernel.Skeleton
import proofs.«132411_j16484084483566_1_alg».proof.Proof.Gen.Kernel.Launch
import proofs.«132411_j16484084483566_1_alg».proof.Proof.Gen.Kernel.Points
import proofs.«132411_j16484084483566_1_alg».proof.Proof.Gen.Kernel.Frame
import proofs.«132411_j16484084483566_1_alg».proof.Proof.Gen.KernelIdeal
import proofs.«132411_j16484084483566_1_alg».proof.Proof.Gen.KernelIdeal.Skeleton
import proofs.«132411_j16484084483566_1_alg».proof.Proof.Gen.KernelIdeal.Launch
import proofs.«132411_j16484084483566_1_alg».proof.Proof.Gen.KernelIdeal.Points
import proofs.«132411_j16484084483566_1_alg».proof.Proof.Gen.KernelIdeal.Frame
import proofs.«132411_j16484084483566_1_alg».proof.Proof.Gen.ReferenceIdeal
import proofs.«132411_j16484084483566_1_alg».proof.Proof.Gen.Pre_finite_inputs
import proofs.«132411_j16484084483566_1_alg».proof.Proof.Gen.KernelIdeal.Value
import proofs.«132411_j16484084483566_1_alg».proof.Proof.Gen.ReferenceIdeal.Run
import proofs.«132411_j16484084483566_1_alg».proof.Proof.Gen.ReferenceIdeal.Read
import proofs.«132411_j16484084483566_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    AffinityClaims.frame_k, AffinityClaims.frame_ki, AffinityClaims.frame_ri, AffinityClaims.preserves,
    AffinityClaims.algebraic⟩

end Cert.Proof

end
